-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x1024x1024 : Shape := ⟨3, ![16, 1024, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_

variable [Facts]

def fn {F : FTy → Type} [FloatOps F] (main_arg0 : FVec F S16x2048x1024 .f32) (main_arg1 : FVec F S16x1024x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S16x2048x1024 : Shape := ⟨3, ![16, 2048, 1024]⟩
abbrev S16x1024x1024 : Shape := ⟨3, ![16, 1024, 1024]⟩
abbrev S16x1024x2048 : Shape := ⟨3, ![16, 1024, 2048]⟩
abbrev S1x512x1024 : Shape := ⟨3, ![1, 512, 1024]⟩
abbrev S1x2048x1024 : Shape := ⟨3, ![1, 2048, 1024]⟩
abbrev S1x512x2048 : Shape := ⟨3, ![1, 512, 2048]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S16x1024x1024, .f32⟩
  | .hbm, ⟨2, _⟩ => ⟨S16x1024x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x512x2048, .f32⟩
  | .local _ .vmem, ⟨5, _⟩ => ⟨S1x512x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  inb_S1x512x2048_S1x512x1024_0_0_0 : ∀ a, (![0, 0, 0] : Fin 3 → Nat) a + S1x512x1024.size a ≤ S1x512x2048.size a
  shapeCasts_S512x1024_S1x512x1024 : S512x1024.ShapeCasts S1x512x1024
  inb_S1x512x2048_S1x512x1024_0_0_1024 : ∀ a, (![0, 0, 1024] : Fin 3 → Nat) a + S1x512x1024.size a ≤ S1x512x2048.size a
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .f32 = 32 ∨ (Rect.block (s := S16x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x1024x2048.size a
  hwx0_2 : ∀ i : grid0.Coords, EltTy.bits .f32 = 32 ∨ (Rect.block (s := S16x1024x2048) S1x512x2048.size (cc0_transform_2 i) (hinb0_2 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x1024x1024 : Shape := ⟨3, ![16, 1024, 1024]⟩
abbrev S16x1024x2048 : Shape := ⟨3, ![16, 1024, 2048]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024x1024, .f32⟩
  | .hbm, ⟨2, _⟩ => ⟨S16x1024x2048, .f32⟩
  | .hbm, ⟨3, _⟩ => ⟨S_, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S16x1024x1, .f32⟩
  | .hbm, ⟨9, _⟩ => ⟨S16x1024x2048, .f32⟩
  | .hbm, ⟨10, _⟩ => ⟨S16x1024x2048, .f32⟩
  | .hbm, ⟨11, _⟩ => ⟨S16x1024x2048, .f32⟩
  | .hbm, ⟨12, _⟩ => ⟨S_, .f32⟩
  | .hbm, ⟨13, _⟩ => ⟨S16x1024, .f32⟩
  | .hbm, ⟨14, _⟩ => ⟨S16x1024x1, .f32⟩
  | .hbm, ⟨15, _⟩ => ⟨S16x1024x2048, .f32⟩
  | .hbm, ⟨16, _⟩ => ⟨S16x1024x2048, .f32⟩
  | .hbm, ⟨17, _⟩ => ⟨S16x1024x1024, .f32⟩
  | .hbm, ⟨18, _⟩ => ⟨S16x1024x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S16x1024x2048_S16x1024_d2 : S16x1024x2048.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x2048_0_1_2 : S16x1024x1.BroadcastsInDim S16x1024x2048 (![0, 1, 2] : Fin 3 → Fin S16x1024x2048.rank)
  concatenates_S16x1024x1024_S16x1024x1024_S16x1024x2048_d2 : Shape.Concatenates [S16x1024x1024, S16x1024x1024] S16x1024x2048 2
  dot_S16x1024x1024_S16x2048x1024_S16x1024x2048_2_2_1_1_0_0_wf : DotDims.WF S16x1024x1024 S16x2048x1024 S16x1024x2048 [2] [2] [1] [1] [0] [0]
  dot_S16x1024x2048_S16x2048x1024_S16x1024x1024_2_1_1_2_0_0_wf : DotDims.WF S16x1024x2048 S16x2048x1024 S16x1024x1024 [2] [1] [1] [2] [0] [0]

variable [Facts₀]

def dot_S16x1024x1024_S16x2048x1024_S16x1024x2048_2_2_1_1_0_0 : DotDims S16x1024x1024 S16x2048x1024 S16x1024x2048 where
  lhsContracting := [2]
  rhsContracting := [2]
  lhsNonContracting := [1]
  rhsNonContracting := [1]
  lhsBatch := [0]
  rhsBatch := [0]
  wf := dot_S16x1024x1024_S16x2048x1024_S16x1024x2048_2_2_1_1_0_0_wf
def dot_S16x1024x2048_S16x2048x1024_S16x1024x1024_2_1_1_2_0_0 : DotDims S16x1024x2048 S16x2048x1024 S16x1024x1024 where
  lhsContracting := [2]
  rhsContracting := [1]
  lhsNonContracting := [1]
  rhsNonContracting := [2]
  lhsBatch := [0]
  rhsBatch := [0]
  wf := dot_S16x1024x2048_S16x2048x1024_S16x1024x1024_2_1_1_2_0_0_wf

class Facts : Prop extends Facts₀ where

variable [Facts]
-- ==== Proof.Spec.lean ====
/-
  Attention for one query row, stated over the extended reals with no program in sight.

  A query row `q : Fin 1024 → EReal` meets 2048 key rows `K s : Fin 1024 → EReal`, which are also the value rows.
  The scores are the inner products `∑ d, q d * K s d`; the weights are `exp (score s − M)` with `M` the largest
  score (the fold of `max` from `⊥`); the normalizer is the sum of the weights. Two spellings of the
  softmax-weighted sum of the value rows follow: the weighted sum divided ONCE by the normalizer
  (`ctxLate`), and the sum of the values weighted by the already-normalized weights (`ctxEarly`).

  On the extended reals the two differ in general (distributing a quotient over a sum fails at the infinities),
  but when every entry of `q` and `K` is a real they agree: every score is then a real, the largest of finitely
  many reals is a real, every weight is a positive real, the normalizer is a positive real `L`, and in `ℝ`
  `(∑ s, w s * v s) * (1 / L) = ∑ s, (w s * (1 / L)) * v s`.
-/
import Idealize.ShloMosaic.PureOps.Ideal
import Idealize.ShloMosaic.PureOps.Ideal.Laws
import Idealize.ShloMosaic.Lib.ValueIdx

noncomputable section

open scoped BigOperators

namespace Cert.Attn

open Idealize.ShloMosaic

/-! ## Sums and maxima of reals, seen in the extended reals -/

/-- A finite sum of reals, coerced, is the sum of the coerced terms. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from `⊥` over a nonempty finite family of reals is a real. -/
theorem fold_max_real {ι : Type*} [DecidableEq ι] (f : ι → ℝ) (s : Finset ι) (hs : s.Nonempty) :
    ∃ r : ℝ, s.fold max (⊥ : EReal) (fun i => (f i : EReal)) = (r : EReal) := by
  induction s using Finset.induction_on with
  | empty => exact absurd hs Finset.not_nonempty_empty
  | insert a s ha ih =>
    rw [Finset.fold_insert ha]
    rcases s.eq_empty_or_nonempty with rfl | hne
    · exact ⟨f a, by rw [Finset.fold_empty]; exact max_eq_left bot_le⟩
    · obtain ⟨r, hr⟩ := ih hne
      exact ⟨max (f a) r, by rw [hr]; exact (EReal.coe_strictMono.monotone.map_max).symm⟩

/-- The f32 pattern of minus infinity denotes the bottom of the extended reals. -/
theorem neg_inf_eq_bot : Ideal.ofBits .f32 0xFF800000#32 = (⊥ : EReal) := by
  simp [Ideal.ofBits, Ideal.ieee]

/-! ## One row of attention -/

/-- The score of key row `s`: its inner product with the query row. -/
def score (q : Fin 1024 → EReal) (K : Fin 2048 → Fin 1024 → EReal) (s : Fin 2048) : EReal :=
  ∑ d : Fin 1024, q d * K s d

/-- The largest score, as the fold of `max` from `⊥`. -/
def top (q : Fin 1024 → EReal) (K : Fin 2048 → Fin 1024 → EReal) : EReal :=
  (Finset.univ : Finset (Fin 2048)).fold max ⊥ (score q K)

/-- The unnormalized softmax weight of key row `s`. -/
def wt (q : Fin 1024 → EReal) (K : Fin 2048 → Fin 1024 → EReal) (s : Fin 2048) : EReal :=
  Ideal.exp (score q K s - top q K)

/-- The normalizer: the sum of the weights. -/
def denom (q : Fin 1024 → EReal) (K : Fin 2048 → Fin 1024 → EReal) : EReal :=
  ∑ s : Fin 2048, wt q K s

/-- The weighted sum of the value rows, divided once by the normalizer. -/
def ctxLate (q : Fin 1024 → EReal) (K : Fin 2048 → Fin 1024 → EReal) (r : Fin 1024) : EReal :=
  Ideal.div (∑ s : Fin 2048, wt q K s * K s r) (denom q K)

/-- The sum of the value rows weighted by the normalized weights. -/
def ctxEarly (q : Fin 1024 → EReal) (K : Fin 2048 → Fin 1024 → EReal) (r : Fin 1024) : EReal :=
  ∑ s : Fin 2048, Ideal.div (wt q K s) (denom q K) * K s r

/-- Dividing a weighted sum of reals by a nonzero real is weighting by the divided weights. -/
theorem div_sum_real {ι : Type*} [Fintype ι] (w v : ι → ℝ) (L : ℝ) (hL : L ≠ 0) :
    Ideal.div (∑ s, (w s : EReal) * (v s : EReal)) (L : EReal) = ∑ s, Ideal.div (w s : EReal) (L : EReal) * (v s : EReal) := by
  rw [Ideal.div_coe hL]
  simp only [Ideal.div_coe hL, ← EReal.coe_mul, ← coe_sum]
  rw [Finset.sum_mul]
  exact congrArg _ (Finset.sum_congr rfl fun s _ => by ring)

/-- On real entries the two spellings of a row of attention agree. -/
theorem ctxLate_eq_ctxEarly (q : Fin 1024 → EReal) (K : Fin 2048 → Fin 1024 → EReal)
    (hq : ∀ d, ∃ x : ℝ, q d = (x : EReal)) (hK : ∀ s d, ∃ x : ℝ, K s d = (x : EReal)) (r : Fin 1024) :
    ctxLate q K r = ctxEarly q K r := by
  choose q' hq' using hq
  choose K' hK' using hK
  have hsc : ∀ s, score q K s = ((∑ d : Fin 1024, q' d * K' s d : ℝ) : EReal) := fun s => by
    unfold score
    simp only [hq', hK', ← EReal.coe_mul]
    exact (coe_sum _ _).symm
  obtain ⟨M, hM⟩ : ∃ M : ℝ, top q K = (M : EReal) := by
    unfold top
    rw [show score q K = fun s => ((∑ d : Fin 1024, q' d * K' s d : ℝ) : EReal) from funext hsc]
    exact fold_max_real _ _ Finset.univ_nonempty
  have hw : ∀ s, wt q K s = ((Real.exp ((∑ d : Fin 1024, q' d * K' s d) - M) : ℝ) : EReal) := fun s => by
    unfold wt
    rw [hsc, hM, ← EReal.coe_sub, Ideal.exp_coe]
  have hn : denom q K = ((∑ s : Fin 2048, Real.exp ((∑ d : Fin 1024, q' d * K' s d) - M) : ℝ) : EReal) := by
    unfold denom
    simp only [hw]
    exact (coe_sum _ _).symm
  have hpos : (∑ s : Fin 2048, Real.exp ((∑ d : Fin 1024, q' d * K' s d) - M)) ≠ 0 :=
    ne_of_gt (Finset.sum_pos (fun _ _ => Real.exp_pos _) Finset.univ_nonempty)
  unfold ctxLate ctxEarly
  simp only [hw, hn, hK']
  exact div_sum_real _ _ _ hpos

/-! ## The whole result -/

/-- Query row `t` of batch entry `b` of the decoder array. -/
def qrowOf (dec : (⟨3, ![16, 1024, 1024]⟩ : Shape).Idx → EReal) (b : Fin 16) (t : Fin 1024) : Fin 1024 → EReal :=
  fun d => dec (ValueIdx.ix3 b t d)

/-- The key rows of batch entry `b` of the encoder array. -/
def keysOf (enc : (⟨3, ![16, 2048, 1024]⟩ : Shape).Idx → EReal) (b : Fin 16) : Fin 2048 → Fin 1024 → EReal :=
  fun s d => enc (ValueIdx.ix3 b s d)

/-- The result array [16, 1024, 2048]: at `(b, t, c)` the attention context of query row `(b, t)` at `c` for
    `c < 1024` (`ctx` says in which spelling), and the decoder array at `(b, t, c − 1024)` beyond. -/
def attnOut (ctx : (Fin 1024 → EReal) → (Fin 2048 → Fin 1024 → EReal) → Fin 1024 → EReal)
    (enc : (⟨3, ![16, 2048, 1024]⟩ : Shape).Idx → EReal) (dec : (⟨3, ![16, 1024, 1024]⟩ : Shape).Idx → EReal) :
    (⟨3, ![16, 1024, 2048]⟩ : Shape).Idx → EReal := fun i =>
  if h : (i 2).val < 1024 then
    ctx (qrowOf dec ⟨(i 0).val, (i 0).isLt⟩ ⟨(i 1).val, (i 1).isLt⟩) (keysOf enc ⟨(i 0).val, (i 0).isLt⟩) ⟨(i 2).val, h⟩
  else
    dec (ValueIdx.ix3 (⟨(i 0).val, (i 0).isLt⟩ : Fin 16) (⟨(i 1).val, (i 1).isLt⟩ : Fin 1024)
      (⟨(i 2).val - 1024, by have h2 : (i 2).val < 2048 := (i 2).isLt; omega⟩ : Fin 1024))

/-- On real arrays the result is the same in both spellings. -/
theorem attnOut_late_eq_early (enc : (⟨3, ![16, 2048, 1024]⟩ : Shape).Idx → EReal)
    (dec : (⟨3, ![16, 1024, 1024]⟩ : Shape).Idx → EReal)
    (henc : ∀ i, ∃ x : ℝ, enc i = (x : EReal)) (hdec : ∀ i, ∃ x : ℝ, dec i = (x : EReal)) :
    attnOut ctxLate enc dec = attnOut ctxEarly enc dec := by
  funext i
  unfold attnOut
  split
  · exact ctxLate_eq_ctxEarly _ _ (fun d => hdec _) (fun s d => henc _) _
  · rfl

end Cert.Attn

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.KernelBlock.lean ====
/-
  One grid point of the attention kernel, read at an index.

  The body loads a block `x0` of 512 query rows and the block `x1` of all 2048 key rows of one batch entry (each
  with a leading unit axis), and stores two pieces into its [1, 512, 2048] output block. Columns 0 … 1023 receive, at
  `(q, r)`, the softmax-weighted sum of the key rows for query row `q`, the weighted sum formed first and divided
  once by the row's normalizer (`Cert.Attn.ctxLate`); columns 1024 … 2047 receive the query block unchanged.
  The narrowing of the matrix products' operands is the identity on the extended reals, a matrix product into a zero
  accumulator is the plain sum over the contracted axis, a row maximum is the fold of `max` from `⊥` and a row sum
  the plain sum over the row.
-/
import proofs.«166117_j1056561955134_2_alg».proof.Proof.Gen.KernelIdeal.Frame
import proofs.«166117_j1056561955134_2_alg».proof.Proof.Spec
import proofs.«166117_j1056561955134_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Attn

/-! ## The rows a block holds -/

/-- Query row `q` of the query block. -/
def qrow (x0 : Vec Ideal S1x512x1024 .f32) (q : Fin 512) : Fin 1024 → EReal := fun d => x0 (ix3 (0 : Fin 1) q d)

/-- The key rows of the key block. -/
def keys (x1 : Vec Ideal S1x2048x1024 .f32) : Fin 2048 → Fin 1024 → EReal := fun s d => x1 (ix3 (0 : Fin 1) s d)

/-! ## The body's intermediate vectors, named -/

/-- The scores: the query block times the transposed key block. -/
def qk (x0 : Vec Ideal S1x512x1024 .f32) (x1 : Vec Ideal S1x2048x1024 .f32) : FVec Ideal S512x2048 .f32 :=
  matmul dot_S512x1024_S2048x1024_S512x2048_1_1_0_0_n_n none
    (truncf .bf16 (shapeCast S512x1024 x0 shapeCasts_S1x512x1024_S512x1024) bitsLt_bf16_f32)
    (truncf .bf16 (shapeCast S2048x1024 x1 shapeCasts_S1x2048x1024_S2048x1024) bitsLt_bf16_f32)
    (constant S512x2048 .f32 0x00000000#32)

/-- Each row's largest score. -/
def rowTop (x0 : Vec Ideal S1x512x1024 .f32) (x1 : Vec Ideal S1x2048x1024 .f32) : FVec Ideal S512 .f32 :=
  multiReduction .maximumf [1] S512 (qk x0 x1) 0xFF800000#32 reduces_S512x2048_S512 (.inl rfl) rfl

/-- The unnormalized weights. -/
def ew (x0 : Vec Ideal S1x512x1024 .f32) (x1 : Vec Ideal S1x2048x1024 .f32) : FVec Ideal S512x2048 .f32 :=
  exp (subf (qk x0 x1) (broadcastTo S512x2048 (shapeCast S512x1 (rowTop x0 x1) shapeCasts_S512_S512x1) broadcasts_S512x1_S512x2048))

/-- Each row's normalizer. -/
def rowSum (x0 : Vec Ideal S1x512x1024 .f32) (x1 : Vec Ideal S1x2048x1024 .f32) : FVec Ideal S512 .f32 :=
  multiReduction .add [1] S512 (ew x0 x1) 0x00000000#32 reduces_S512x2048_S512 (.inl rfl) rfl

/-- The weights times the key block. -/
def pv (x0 : Vec Ideal S1x512x1024 .f32) (x1 : Vec Ideal S1x2048x1024 .f32) : FVec Ideal S512x1024 .f32 :=
  matmul dot_S512x2048_S2048x1024_S512x1024_1_0_0_1_n_n none
    (truncf .bf16 (ew x0 x1) bitsLt_bf16_f32)
    (truncf .bf16 (shapeCast S2048x1024 x1 shapeCasts_S1x2048x1024_S2048x1024) bitsLt_bf16_f32)
    (constant S512x1024 .f32 0x00000000#32)

/-- The first store's payload is the quotient of `pv` by the row sums kept as a column, with the unit axis put back. -/
theorem pay1_eq (x0 : Vec Ideal S1x512x1024 .f32) (x1 : Vec Ideal S1x2048x1024 .f32) :
    k0_pay1 x0 x1 = shapeCast S1x512x1024 (divf (pv x0 x1)
      (broadcastTo S512x1024 (shapeCast S512x1 (rowSum x0 x1) shapeCasts_S512_S512x1) broadcasts_S512x1_S512x1024))
      shapeCasts_S512x1024_S1x512x1024 := rfl

/-! ## The operand indices of the two matrix products -/

theorem lhs1_0 (i : S512x2048.Idx) (κ : dot_S512x1024_S2048x1024_S512x2048_1_1_0_0_n_n.contr.Idx) :
    (dot_S512x1024_S2048x1024_S512x2048_1_1_0_0_n_n.lhsIdx i κ 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem lhs1_1 (i : S512x2048.Idx) (κ : dot_S512x1024_S2048x1024_S512x2048_1_1_0_0_n_n.contr.Idx) :
    (dot_S512x1024_S2048x1024_S512x2048_1_1_0_0_n_n.lhsIdx i κ 1).val = (κ ⟨0, by decide⟩).val :=
  dot_S512x1024_S2048x1024_S512x2048_1_1_0_0_n_n.lhsIdx_val_of_single rfl i κ
theorem rhs1_0 (i : S512x2048.Idx) (κ : dot_S512x1024_S2048x1024_S512x2048_1_1_0_0_n_n.contr.Idx) :
    (dot_S512x1024_S2048x1024_S512x2048_1_1_0_0_n_n.rhsIdx i κ 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem rhs1_1 (i : S512x2048.Idx) (κ : dot_S512x1024_S2048x1024_S512x2048_1_1_0_0_n_n.contr.Idx) :
    (dot_S512x1024_S2048x1024_S512x2048_1_1_0_0_n_n.rhsIdx i κ 1).val = (κ ⟨0, by decide⟩).val :=
  dot_S512x1024_S2048x1024_S512x2048_1_1_0_0_n_n.rhsIdx_val_of_single rfl i κ

theorem lhs2_0 (i : S512x1024.Idx) (κ : dot_S512x2048_S2048x1024_S512x1024_1_0_0_1_n_n.contr.Idx) :
    (dot_S512x2048_S2048x1024_S512x1024_1_0_0_1_n_n.lhsIdx i κ 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs2_1 (i : S512x1024.Idx) (κ : dot_S512x2048_S2048x1024_S512x1024_1_0_0_1_n_n.contr.Idx) :
    (dot_S512x2048_S2048x1024_S512x1024_1_0_0_1_n_n.lhsIdx i κ 1).val = (κ ⟨0, by decide⟩).val :=
  dot_S512x2048_S2048x1024_S512x1024_1_0_0_1_n_n.lhsIdx_val_of_single rfl i κ
theorem rhs2_0 (i : S512x1024.Idx) (κ : dot_S512x2048_S2048x1024_S512x1024_1_0_0_1_n_n.contr.Idx) :
    (dot_S512x2048_S2048x1024_S512x1024_1_0_0_1_n_n.rhsIdx i κ 0).val = (κ ⟨0, by decide⟩).val :=
  dot_S512x2048_S2048x1024_S512x1024_1_0_0_1_n_n.rhsIdx_val_of_single rfl i κ
theorem rhs2_1 (i : S512x1024.Idx) (κ : dot_S512x2048_S2048x1024_S512x1024_1_0_0_1_n_n.contr.Idx) :
    (dot_S512x2048_S2048x1024_S512x1024_1_0_0_1_n_n.rhsIdx i κ 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-! ## Each vector at an index -/

/-- The score at `(q, s)` is the inner product of query row `q` and key row `s`. -/
theorem qk_apply (x0 : Vec Ideal S1x512x1024 .f32) (x1 : Vec Ideal S1x2048x1024 .f32) (q : Fin 512) (s : Fin 2048) :
    qk x0 x1 (ix2 q s) = score (qrow x0 q) (keys x1) s := by
  unfold qk score
  simp only [matmul]
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 q s) ((contrEquiv1 dot_S512x1024_S2048x1024_S512x2048_1_1_0_0_n_n 1024 rfl rfl).symm k) = ix2 q k := funext fun a => Fin.ext (by
    match a with
    | ⟨0, _⟩ => exact lhs1_0 _ _
    | ⟨1, _⟩ => exact (lhs1_1 _ _).trans hk)
  have er : dot_S512x1024_S2048x1024_S512x2048_1_1_0_0_n_n.rhsIdx (ix2 q s) ((contrEquiv1 dot_S512x1024_S2048x1024_S512x2048_1_1_0_0_n_n 1024 rfl rfl).symm k) = ix2 s k := funext fun a => Fin.ext (by
    match a with
    | ⟨0, _⟩ => exact rhs1_0 _ _
    | ⟨1, _⟩ => exact (rhs1_1 _ _).trans hk)
  rw [el, er]
  show shapeCast S512x1024 x0 shapeCasts_S1x512x1024_S512x1024 (ix2 q k) * shapeCast S2048x1024 x1 shapeCasts_S1x2048x1024_S2048x1024 (ix2 s k)
    = x0 (ix3 (0 : Fin 1) q k) * x1 (ix3 (0 : Fin 1) s k)
  rw [shapeCast_1ab_ab_apply, shapeCast_1ab_ab_apply]

/-- A row's largest score is the fold of `max` from `⊥` over the row's scores. -/
theorem rowTop_apply (x0 : Vec Ideal S1x512x1024 .f32) (x1 : Vec Ideal S1x2048x1024 .f32) (q : Fin 512) :
    rowTop x0 x1 (ix1 q) = top (qrow x0 q) (keys x1) := by
  unfold rowTop top
  refine (Ideal.multiReduction_maximumf_single (qk x0 x1) _ reduces_S512x2048_S512 (.inl rfl) rfl (ix1 q)).trans ?_
  show Finset.fold max (Ideal.ofBits .f32 0xFF800000#32) _ _ = _
  rw [neg_inf_eq_bot]
  exact Finset.fold_congr fun k _ => (congrArg (qk x0 x1) (funext fun a => Fin.ext (by
    match a with
    | ⟨0, _⟩ => rfl
    | ⟨1, _⟩ => rfl))).trans (qk_apply x0 x1 q k)

/-- The weight at `(q, s)`. -/
theorem ew_apply (x0 : Vec Ideal S1x512x1024 .f32) (x1 : Vec Ideal S1x2048x1024 .f32) (q : Fin 512) (s : Fin 2048) :
    ew x0 x1 (ix2 q s) = wt (qrow x0 q) (keys x1) s := by
  unfold ew wt
  show Ideal.exp (qk x0 x1 (ix2 q s) - broadcastTo S512x2048 (shapeCast S512x1 (rowTop x0 x1) shapeCasts_S512_S512x1) broadcasts_S512x1_S512x2048 (ix2 q s)) = _
  rw [broadcastTo_a1_ab_apply, shapeCast_a_a1_apply, qk_apply, rowTop_apply]

/-- A row's normalizer is the sum of the row's weights. -/
theorem rowSum_apply (x0 : Vec Ideal S1x512x1024 .f32) (x1 : Vec Ideal S1x2048x1024 .f32) (q : Fin 512) :
    rowSum x0 x1 (ix1 q) = denom (qrow x0 q) (keys x1) := by
  unfold rowSum denom
  refine (Ideal.multiReduction_add_single (ew x0 x1) _ reduces_S512x2048_S512 (.inl rfl) rfl (ix1 q)).trans ?_
  refine Finset.sum_congr rfl fun k _ => ?_
  exact (congrArg (ew x0 x1) (funext fun a => Fin.ext (by
    match a with
    | ⟨0, _⟩ => rfl
    | ⟨1, _⟩ => rfl))).trans (ew_apply x0 x1 q k)

/-- The weights times the key block at `(q, r)`. -/
theorem pv_apply (x0 : Vec Ideal S1x512x1024 .f32) (x1 : Vec Ideal S1x2048x1024 .f32) (q : Fin 512) (r : Fin 1024) :
    pv x0 x1 (ix2 q r) = ∑ s : Fin 2048, wt (qrow x0 q) (keys x1) s * keys x1 s r := by
  unfold pv
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 q r) ((contrEquiv1 dot_S512x2048_S2048x1024_S512x1024_1_0_0_1_n_n 2048 rfl rfl).symm k) = ix2 q k := funext fun a => Fin.ext (by
    match a with
    | ⟨0, _⟩ => exact lhs2_0 _ _
    | ⟨1, _⟩ => exact (lhs2_1 _ _).trans hk)
  have er : dot_S512x2048_S2048x1024_S512x1024_1_0_0_1_n_n.rhsIdx (ix2 q r) ((contrEquiv1 dot_S512x2048_S2048x1024_S512x1024_1_0_0_1_n_n 2048 rfl rfl).symm k) = ix2 k r := funext fun a => Fin.ext (by
    match a with
    | ⟨0, _⟩ => exact (rhs2_0 _ _).trans hk
    | ⟨1, _⟩ => exact rhs2_1 _ _)
  rw [el, er]
  show ew x0 x1 (ix2 q k) * shapeCast S2048x1024 x1 shapeCasts_S1x2048x1024_S2048x1024 (ix2 k r)
    = wt (qrow x0 q) (keys x1) k * x1 (ix3 (0 : Fin 1) k r)
  rw [ew_apply, shapeCast_1ab_ab_apply]

/-- THE FIRST PAYLOAD at `(p, q, r)`: one row of attention, divided late. -/
theorem pay1_apply (x0 : Vec Ideal S1x512x1024 .f32) (x1 : Vec Ideal S1x2048x1024 .f32) (p : Fin 1) (q : Fin 512) (r : Fin 1024) :
    k0_pay1 x0 x1 (ix3 p q r) = ctxLate (qrow x0 q) (keys x1) r := by
  rw [pay1_eq]
  refine (shapeCast_ab_1ab_apply _ _ p q r).trans ?_
  show Ideal.div (pv x0 x1 (ix2 q r))
    (broadcastTo S512x1024 (shapeCast S512x1 (rowSum x0 x1) shapeCasts_S512_S512x1) broadcasts_S512x1_S512x1024 (ix2 q r)) = _
  rw [broadcastTo_a1_ab_apply, shapeCast_a_a1_apply, pv_apply, rowSum_apply]
  rfl

/-- THE SECOND PAYLOAD is the query block: a unit axis dropped and put back. -/
theorem pay2_eq (x0 : Vec Ideal S1x512x1024 .f32) : k0_pay2 x0 = x0 := by
  unfold k0_pay2
  exact shapeCast_shapeCast _ _ _

end Cert.KernelIdeal.Block

end
-- ==== Proof.KernelValue.lean ====
/-
  The kernel's result array, from its blocks.

  The grid has 16 × 2 points; point `(b, h)` stages query rows `512 h … 512 h + 511` of batch entry `b` of the
  decoder array and all key rows of batch entry `b` of the encoder array, and writes back block `(b, h)` of the result:
  rows `512 h … 512 h + 511` of batch entry `b`, all 2048 columns. What the body leaves in the block is ONE function of
  the block's index (`blockOut`): both of its stores are restrictions of it, so the order of the stores does not
  matter. Through the window's block that function is the whole-array function `Cert.Attn.attnOut ctxLate` of the two
  argument arrays, the blocks cover the result array, and so the array ends at that function.
-/
import proofs.«166117_j1056561955134_2_alg».proof.Proof.Gen.KernelIdeal.Value
import proofs.«166117_j1056561955134_2_alg».proof.Proof.KernelBlock

set_option maxRecDepth 16384

noncomputable section

open scoped BigOperators

namespace Cert.KernelIdeal.ArrValue

open Cert.KernelIdeal Cert.KernelIdeal.Gen Cert.KernelIdeal.Block Idealize.ShloMosaic Idealize.ShloMosaic.TcCoe Idealize.SL.Sem
open Idealize.ShloMosaic.ValueIdx Cert.Attn
open Idealize.ShloMosaic.Pipeline (Dat)

/-! ## The block the body leaves -/

theorem hz : (![0, 0, 0] : Fin 3 → Nat) = fun _ => 0 := funext fun a => by fin_cases a <;> rfl

/-- What the body leaves in its [1, 512, 2048] output block, as one function of the block's index: the late-divided
    attention of the block's query row in columns below 1024, the query block itself beyond. -/
def blockOut (x0 : Vec Ideal S1x512x1024 .f32) (x1 : Vec Ideal S1x2048x1024 .f32) : S1x512x2048.Idx → EReal := fun y =>
  if h : (y 2).val < 1024 then
    ctxLate (qrow x0 ⟨(y 1).val, (y 1).isLt⟩) (keys x1) ⟨(y 2).val, h⟩
  else
    x0 (ix3 (0 : Fin 1) (⟨(y 1).val, (y 1).isLt⟩ : Fin 512)
      (⟨(y 2).val - 1024, by have h2 : (y 2).val < 2048 := (y 2).isLt; omega⟩ : Fin 1024))

/-- The store into columns 0 … 1023 is `blockOut` there. -/
theorem piece_lo (x0 : Vec Ideal S1x512x1024 .f32) (x1 : Vec Ideal S1x2048x1024 .f32) (x : S1x512x1024.Idx) :
    k0_pay1 (View.ld x0 r0_0) (View.ld x1 r0_1) x = blockOut x0 x1 (r0_2.emb x) := by
  rw [View.ld_unit_zero (S := S1x512x1024) hz, View.ld_unit_zero (S := S1x2048x1024) hz]
  obtain ⟨p, q, r, rfl⟩ : ∃ (p : Fin 1) (q : Fin 512) (r : Fin 1024), x = ix3 p q r := ⟨x 0, x 1, x 2, eq_ix3 x⟩
  rw [pay1_apply]
  unfold blockOut
  have hr : r.val < 1024 := r.isLt
  have e2 : ((r0_2.emb (ix3 p q r)) 2).val = 0 + 1 * r.val := rfl
  rw [dif_pos (show ((r0_2.emb (ix3 p q r)) 2).val < 1024 by rw [e2]; omega)]
  exact congrArg₂ (fun (a : Fin 512) (c : Fin 1024) => ctxLate (qrow x0 a) (keys x1) c)
    (Fin.ext (show q.val = 0 + 1 * q.val by omega)) (Fin.ext (show r.val = 0 + 1 * r.val by omega))

/-- The store into columns 1024 … 2047 is `blockOut` there. -/
theorem piece_hi (x0 : Vec Ideal S1x512x1024 .f32) (x1 : Vec Ideal S1x2048x1024 .f32) (x : S1x512x1024.Idx) :
    k0_pay2 (View.ld x0 r0_0) x = blockOut x0 x1 (r0_3.emb x) := by
  rw [View.ld_unit_zero (S := S1x512x1024) hz, pay2_eq]
  obtain ⟨p, q, r, rfl⟩ : ∃ (p : Fin 1) (q : Fin 512) (r : Fin 1024), x = ix3 p q r := ⟨x 0, x 1, x 2, eq_ix3 x⟩
  unfold blockOut
  have hp : p.val < 1 := p.isLt
  have hr : r.val < 1024 := r.isLt
  have e2 : ((r0_3.emb (ix3 p q r)) 2).val = 1024 + 1 * r.val := rfl
  rw [dif_neg (show ¬ ((r0_3.emb (ix3 p q r)) 2).val < 1024 by rw [e2]; omega)]
  refine congrArg x0 (funext fun a => Fin.ext ?_)
  match a with
  | ⟨0, _⟩ => show p.val = 0; omega
  | ⟨1, _⟩ => show q.val = 0 + 1 * q.val; omega
  | ⟨2, _⟩ => show r.val = 1024 + 1 * r.val - 1024; omega

/-- So the output block after the body is `blockOut` of the two input blocks. -/
theorem out0_2_eq (x0 : Vec Ideal S1x512x1024 .f32) (x1 : Vec Ideal S1x2048x1024 .f32) :
    out0_2 x0 x1 = blockOut x0 x1 := by
  funext y
  unfold out0_2
  refine View.canon_apply_of_pieces (Val := Elt Ideal) (blockOut x0 x1) _ ?_ y (cover0_2 _ _ y)
  intro pc hpc
  rcases List.mem_cons.mp hpc with rfl | hpc
  · exact piece_hi x0 x1
  · rcases List.mem_cons.mp hpc with rfl | hpc
    · exact piece_lo x0 x1
    · exact absurd hpc List.not_mem_nil

/-! ## A block of the result as a block of the whole-array function -/

/-- If `x0` holds query rows `512 H … 512 H + 511` of batch entry `B` of `dec` and `x1` the key rows of batch entry `B`
    of `enc`, then `blockOut x0 x1` at `y` is the whole-array function at row `512 H + y 1`, column `y 2` of batch
    entry `B`. -/
theorem blockOut_eq (enc : S16x2048x1024.Idx → EReal) (dec : S16x1024x1024.Idx → EReal)
    (x0 : Vec Ideal S1x512x1024 .f32) (x1 : Vec Ideal S1x2048x1024 .f32) (B H : Nat) (hB : B < 16) (hH : H < 2)
    (h0 : ∀ (q : Fin 512) (d : Fin 1024),
      x0 (ix3 (0 : Fin 1) q d) = dec (ix3 (⟨B, hB⟩ : Fin 16) (⟨H * 512 + q.val, by have := q.isLt; omega⟩ : Fin 1024) d))
    (h1 : ∀ (s : Fin 2048) (d : Fin 1024), x1 (ix3 (0 : Fin 1) s d) = enc (ix3 (⟨B, hB⟩ : Fin 16) s d))
    (y : S1x512x2048.Idx) (Y : S16x1024x2048.Idx)
    (hY0 : (Y 0).val = B) (hY1 : (Y 1).val = H * 512 + (y 1).val) (hY2 : (Y 2).val = (y 2).val) :
    blockOut x0 x1 y = attnOut ctxLate enc dec Y := by
  have hq : ∀ q : Fin 512, qrow x0 q = qrowOf dec ⟨B, hB⟩ ⟨H * 512 + q.val, by have := q.isLt; omega⟩ :=
    fun q => funext fun d => h0 q d
  have hk : keys x1 = keysOf enc ⟨B, hB⟩ := funext fun s => funext fun d => h1 s d
  have b0 : (⟨(Y 0).val, (Y 0).isLt⟩ : Fin 16) = ⟨B, hB⟩ := Fin.ext hY0
  have b1 : (⟨(Y 1).val, (Y 1).isLt⟩ : Fin 1024) = ⟨H * 512 + (y 1).val, by have : (y 1).val < 512 := (y 1).isLt; omega⟩ := Fin.ext hY1
  unfold blockOut attnOut
  by_cases h : (y 2).val < 1024
  · have h' : (Y 2).val < 1024 := by rw [hY2]; exact h
    rw [dif_pos h, dif_pos h', hq, hk, b0, b1]
    exact congrArg _ (Fin.ext hY2.symm)
  · have h' : ¬ (Y 2).val < 1024 := by rw [hY2]; exact h
    rw [dif_neg h, dif_neg h', b0, b1, h0]
    exact congrArg (fun c => dec (ix3 _ _ c)) (Fin.ext (by show (y 2).val - 1024 = (Y 2).val - 1024; rw [hY2]))

variable (m : (ℓ : Loc nD τ sig) → Buf (Elt Ideal) ℓ) (ρ : Dev nD → PrngReg)

/-- The printed index maps over the 32 grid points: the query window moves with the result window on the batch and row-block
    axes, the key window on the batch axis only, and every other block index is zero. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) < 16 ∧ win0_2.index t (1 : Fin 3) < 2 :=
  (by decide +kernel : ∀ t : Fin grid0.N, _)

/-- Every (batch entry, row block) pair is some point's. -/
theorem idx_onto : ∀ (b : Fin 16) (h : Fin 2), ∃ t : Fin cfg0.N, win0_2.index t = ![b.val, h.val, 0] :=
  (by decide +kernel : ∀ (b : Fin 16) (h : Fin 2), ∃ t : Fin grid0.N, win0_2.index t = ![b.val, h.val, 0])

/-- WHAT POINT `t` WRITES BACK is block `t` of the whole-array function of the argument arrays. -/
theorem flushed_eq (c : Dev nD) (t : Fin cfg0.N) :
    (dats m 0 c).flushed 2 t
      = ((cfg0.win 2).blk t).view.read (Elt Ideal) (attnOut ctxLate (V m c main_arg0) (V m c main_arg1)) := by
  rw [Value.flushed2, out0_2_eq]
  obtain ⟨e00, e01, e02, e10, e11, e12, e22, hb, hh⟩ := idx_facts t
  funext y
  have hy0 : (y 0).val < 1 := (y 0).isLt
  have hy1 : (y 1).val < 512 := (y 1).isLt
  have hy2 : (y 2).val < 2048 := (y 2).isLt
  show blockOut (iblk m c 0 t) (iblk m c 1 t) y
    = attnOut ctxLate (V m c main_arg0) (V m c main_arg1) (((cfg0.win 2).blk t).view.emb y)
  refine blockOut_eq (V m c main_arg0) (V m c main_arg1) (iblk m c 0 t) (iblk m c 1 t)
    (win0_2.index t (0 : Fin 3)) (win0_2.index t (1 : Fin 3)) hb hh ?_ ?_ y _ ?_ ?_ ?_
  · intro q d
    have hq : q.val < 512 := q.isLt
    show V m c main_arg1 (((cfg0.win 0).blk t).view.emb (ix3 (0 : Fin 1) q d)) = _
    refine congrArg (V m c main_arg1) (funext fun a => Fin.ext ?_)
    match a with
    | ⟨0, _⟩ => show win0_0.index t (0 : Fin 3) * 1 + 1 * 0 = win0_2.index t (0 : Fin 3); omega
    | ⟨1, _⟩ => show win0_0.index t (1 : Fin 3) * 512 + 1 * q.val = win0_2.index t (1 : Fin 3) * 512 + q.val; omega
    | ⟨2, _⟩ => show win0_0.index t (2 : Fin 3) * 1024 + 1 * d.val = d.val; omega
  · intro s d
    show V m c main_arg0 (((cfg0.win 1).blk t).view.emb (ix3 (0 : Fin 1) s d)) = _
    refine congrArg (V m c main_arg0) (funext fun a => Fin.ext ?_)
    match a with
    | ⟨0, _⟩ => show win0_1.index t (0 : Fin 3) * 1 + 1 * 0 = win0_2.index t (0 : Fin 3); omega
    | ⟨1, _⟩ => show win0_1.index t (1 : Fin 3) * 2048 + 1 * s.val = s.val; omega
    | ⟨2, _⟩ => show win0_1.index t (2 : Fin 3) * 1024 + 1 * d.val = d.val; omega
  · show win0_2.index t (0 : Fin 3) * 1 + 1 * (y 0).val = win0_2.index t (0 : Fin 3); omega
  · show win0_2.index t (1 : Fin 3) * 512 + 1 * (y 1).val = win0_2.index t (1 : Fin 3) * 512 + (y 1).val; omega
  · show win0_2.index t (2 : Fin 3) * 2048 + 1 * (y 2).val = (y 2).val; omega

/-- An index of the result array is in point `t`'s block iff each coordinate is in the block's range on its axis. -/
theorem mem_blk (t : Fin cfg0.N) (i : S16x1024x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v0).slice (win0_2.rect t)).set ↔ _
  rw [View.set_slice_whole, Rect.mem_set_unit]
  exact Iff.rfl

/-- The blocks cover the result array: row `r` of batch entry `b` lies in the block of point `(b, r / 512)`. -/
theorem cover (i : S16x1024x2048.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 2048 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- THE RESULT ARRAY after the run is the whole-array function of the argument arrays. -/
theorem final (c : Dev nD) :
    (dats m 0 c).arrAt 2 cfg0.N
      = attnOut ctxLate (m ((c : Thread nD τ).loc main_arg0)) (m ((c : Thread nD τ).loc main_arg1)) :=
  (dats m 0 c).arrAt_eq_of_cover 2 (attnOut ctxLate (V m c main_arg0) (V m c main_arg1))
    (fun t _ => flushed_eq m c t) cover

/-- The kernel's run: the result array at the whole-array function of the arguments, the arguments unchanged. -/
theorem run : θ_run defs (onTc (τ := τ) (main (F := Ideal))) ⟨m, fun _ => 0, ρ⟩ fun r => ∀ c : Dev nD,
      r.2.mem ((c : Thread nD τ).loc main_v0)
        = attnOut ctxLate (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrValue

end
-- ==== Proof.RefValue.lean ====
/-
  The reference, read at an index.

  The reference forms the scores of every query row against the key rows of its batch entry, takes each row's largest
  score (a maximum from `−∞`, taken once more against `−∞`), exponentiates the differences, sums each row, divides the
  weights by the row sums, multiplies the normalized weights with the value rows, and joins the result with the
  decoder array along the last axis. Stage by stage, at an index given by coordinates, this is the row of attention in
  its early-divided spelling (`Cert.Attn.ctxEarly`) in columns 0 … 1023 and the decoder array in columns 1024 … 2047.
-/
import proofs.«166117_j1056561955134_2_alg».proof.Proof.Gen.ReferenceIdeal.Read
import proofs.«166117_j1056561955134_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (enc : (⟨S16x2048x1024, .f32⟩ : BufTy).Contents (Elt Ideal)) (dec : (⟨S16x1024x1024, .f32⟩ : BufTy).Contents (Elt Ideal))

/-- The scores. -/
theorem v0_apply (b : Fin 16) (t : Fin 1024) (s : Fin 2048) :
    val_main_v0 (F := Ideal) enc dec (ix3 b t s) = score (qrowOf dec b t) (keysOf enc b) s := by
  rw [val_main_v0_apply]
  unfold score
  refine Finset.sum_congr rfl fun k _ => ?_
  have e1 : lidx_main_v0 (ix3 b t s) k = ix3 b t k := funext fun a => by
    match a with
    | ⟨0, _⟩ => rfl
    | ⟨1, _⟩ => rfl
    | ⟨2, _⟩ => rfl
  have e2 : ridx_main_v0 (ix3 b t s) k = ix3 b s k := funext fun a => by
    match a with
    | ⟨0, _⟩ => rfl
    | ⟨1, _⟩ => rfl
    | ⟨2, _⟩ => rfl
  rw [e1, e2]
  rfl

/-- A row's largest score: the host's maximum over the last axis is the fold of `max` from `⊥`. -/
theorem v1_apply (b : Fin 16) (t : Fin 1024) :
    val_main_v1 (F := Ideal) enc dec (ix2 b t) = top (qrowOf dec b t) (keysOf enc b) := by
  unfold val_main_v1 top
  refine (Host.reduce_eq_fold_single (FloatOps.maximumf (F := Ideal) (φ := .f32)) (val_main_v0 (F := Ideal) enc dec) (val_main_cst (F := Ideal))
    reducesTo_S16x1024x2048_S16x1024_d2 (by decide) h_S_ (ix2 b t)).trans ?_
  show Finset.fold max (Ideal.ofBits .f32 0xFF800000#32) _ _ = _
  rw [neg_inf_eq_bot]
  exact Finset.fold_congr fun k _ => (congrArg (val_main_v0 (F := Ideal) enc dec) (funext fun a => Fin.ext (by
    match a with
    | ⟨0, _⟩ => rfl
    | ⟨1, _⟩ => rfl
    | ⟨2, _⟩ => rfl))).trans (v0_apply enc dec b t k)

/-- The largest score broadcast back along the row; the second maximum against `−∞` changes nothing. -/
theorem v5_apply (b : Fin 16) (t : Fin 1024) (s : Fin 2048) :
    val_main_v5 (F := Ideal) enc dec (ix3 b t s) = top (qrowOf dec b t) (keysOf enc b) := by
  rw [val_main_v5_apply, val_main_v4_apply, val_main_v3_apply, val_main_v2_apply, val_main_cst_0_apply]
  have e : idx_main_v4 (idx_main_v5 (ix3 b t s)) = ix2 b t := funext fun a => by
    match a with
    | ⟨0, _⟩ => rfl
    | ⟨1, _⟩ => rfl
  rw [e, v1_apply]
  show max (Ideal.ofBits .f32 0xFF800000#32) _ = _
  rw [neg_inf_eq_bot, max_eq_right bot_le]

/-- The unnormalized weights. -/
theorem v7_apply (b : Fin 16) (t : Fin 1024) (s : Fin 2048) :
    val_main_v7 (F := Ideal) enc dec (ix3 b t s) = wt (qrowOf dec b t) (keysOf enc b) s := by
  rw [val_main_v7_apply, val_main_v6_apply, v0_apply, v5_apply]
  rfl

/-- The row sums broadcast back along the row; the sum starts from zero. -/
theorem v10_apply (b : Fin 16) (t : Fin 1024) (s : Fin 2048) :
    val_main_v10 (F := Ideal) enc dec (ix3 b t s) = denom (qrowOf dec b t) (keysOf enc b) := by
  rw [val_main_v10_apply, val_main_v9_apply, val_main_v8_apply, val_main_cst_1_apply]
  unfold denom
  show Ideal.ofBits .f32 0x00000000#32 + _ = _
  rw [Ideal.ofBits_zero_f32, zero_add]
  refine Finset.sum_congr rfl fun k _ => ?_
  have e : idx_main_v8 (idx_main_v9 (idx_main_v10 (ix3 b t s))) k = ix3 b t k := funext fun a => by
    match a with
    | ⟨0, _⟩ => rfl
    | ⟨1, _⟩ => rfl
    | ⟨2, _⟩ => rfl
  rw [e, v7_apply]

/-- The normalized weights. -/
theorem v11_apply (b : Fin 16) (t : Fin 1024) (s : Fin 2048) :
    val_main_v11 (F := Ideal) enc dec (ix3 b t s)
      = Ideal.div (wt (qrowOf dec b t) (keysOf enc b) s) (denom (qrowOf dec b t) (keysOf enc b)) := by
  rw [val_main_v11_apply, v7_apply, v10_apply]
  rfl

/-- The context: the value rows weighted by the normalized weights. -/
theorem v12_apply (b : Fin 16) (t : Fin 1024) (r : Fin 1024) :
    val_main_v12 (F := Ideal) enc dec (ix3 b t r) = ctxEarly (qrowOf dec b t) (keysOf enc b) r := by
  rw [val_main_v12_apply]
  unfold ctxEarly
  refine Finset.sum_congr rfl fun k _ => ?_
  have e1 : lidx_main_v12 (ix3 b t r) k = ix3 b t k := funext fun a => by
    match a with
    | ⟨0, _⟩ => rfl
    | ⟨1, _⟩ => rfl
    | ⟨2, _⟩ => rfl
  have e2 : ridx_main_v12 (ix3 b t r) k = ix3 b k r := funext fun a => by
    match a with
    | ⟨0, _⟩ => rfl
    | ⟨1, _⟩ => rfl
    | ⟨2, _⟩ => rfl
  rw [e1, e2, v11_apply]
  rfl

/-- THE REFERENCE'S RESULT: the context joined with the decoder array along the last axis. -/
theorem result_eq : val_main_v13 (F := Ideal) enc dec = attnOut ctxEarly enc dec := by
  funext i
  obtain ⟨b, t, c, rfl⟩ : ∃ (b : Fin 16) (t : Fin 1024) (c : Fin 2048), i = ix3 b t c := ⟨i 0, i 1, i 2, eq_ix3 i⟩
  unfold val_main_v13 attnOut
  by_cases h : c.val < 1024
  · rw [dif_pos (show ((ix3 b t c : (⟨3, ![16, 1024, 2048]⟩ : Shape).Idx) 2).val < 1024 from h)]
    refine (concatenate_pair_apply_left (t := S16x1024x2048) (s₁ := S16x1024x1024) (s₂ := S16x1024x1024) (2 : Fin 3) _ _ concatenates_S16x1024x1024_S16x1024x1024_S16x1024x2048_d2
      (ix3 b t c) rfl (ix3 b t (⟨c.val, h⟩ : Fin 1024)) (fun a => by
        match a with
        | ⟨0, _⟩ => rfl
        | ⟨1, _⟩ => rfl
        | ⟨2, _⟩ => rfl)).trans ?_
    exact v12_apply enc dec b t ⟨c.val, h⟩
  · rw [dif_neg (show ¬ ((ix3 b t c : (⟨3, ![16, 1024, 2048]⟩ : Shape).Idx) 2).val < 1024 from h)]
    have hc : c.val < 2048 := c.isLt
    exact concatenate_pair_apply_right (t := S16x1024x2048) (s₁ := S16x1024x1024) (s₂ := S16x1024x1024) (2 : Fin 3) _ _ concatenates_S16x1024x1024_S16x1024x1024_S16x1024x2048_d2
      (ix3 b t c) rfl rfl (ix3 b t (⟨c.val - 1024, by omega⟩ : Fin 1024)) (fun a ha => by
        match a with
        | ⟨0, _⟩ => rfl
        | ⟨1, _⟩ => rfl
        | ⟨2, _⟩ => exact absurd rfl ha) (by show c.val - 1024 + 1024 = c.val; omega)

end Cert.ReferenceIdeal.RefValue

end
-- ==== Proof.Finite.lean ====
/-
  From the precondition to real entries.

  The precondition says that `|x| < +∞` holds of every entry of both argument arrays: a conjunction of two
  all-reductions of comparisons. On the extended reals an entry whose absolute value `max x (−x)` is below `⊤` is neither
  `⊤` nor `⊥`, so it is a real.
-/
import proofs.«166117_j1056561955134_2_alg».proof.Pre_finite_inputs
import proofs.«166117_j1056561955134_2_alg».proof.Proof.Gen.Pre_finite_inputs
import Idealize.ShloMosaic.Lib.ReduceAll
import Idealize.ShloMosaic.Lib.ValueIdx
import Idealize.ShloMosaic.Lib.Affine
import Idealize.ShloMosaic.PureOps.Ideal

noncomputable section

namespace Cert.Finite

open Cert.Pre_finite_inputs Idealize.ShloMosaic Idealize.ShloMosaic.ValueIdx

instance : Subsingleton S_.Idx := ⟨fun a b => funext fun d => d.elim0⟩

/-- The f32 pattern of plus infinity denotes the top of the extended reals. -/
theorem pos_inf_eq_top : Ideal.ofBits .f32 0x7F800000#32 = (⊤ : EReal) := by
  simp [Ideal.ofBits, Ideal.ieee]

/-- An extended real whose absolute value compares below `+∞` is a real. -/
theorem real_of_abs_lt (x : EReal)
    (h : Ideal.cmp .olt (max x (-x)) (Ideal.ofBits .f32 0x7F800000#32) = 1#1) : ∃ r : ℝ, x = (r : EReal) := by
  rw [pos_inf_eq_top] at h
  have hlt : max x (-x) < ⊤ := by
    by_contra hn
    have h0 : Ideal.cmp .olt (max x (-x)) ⊤ = 0#1 := by simp [Ideal.cmp, hn]
    rw [h0] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- Under the precondition every entry of both argument arrays is a real. -/
theorem reals_of_pre (enc : FVec Ideal S16x2048x1024 .f32) (dec : FVec Ideal S16x1024x1024 .f32)
    (h : fn (F := Ideal) enc dec = fun _ => 1#1) :
    (∀ i, ∃ r : ℝ, enc i = (r : EReal)) ∧ (∀ i, ∃ r : ℝ, dec i = (r : EReal)) := by
  have h0 := congrFun h ix0
  dsimp only [fn] at h0
  obtain ⟨ha, hb⟩ := IntOp.andi_eq_one.1 h0
  refine ⟨fun i => ?_, fun i => ?_⟩
  · exact real_of_abs_lt _ (Host.reduce_andi_all _ _ _ _ ix0 ha i)
  · exact real_of_abs_lt _ (Host.reduce_andi_all _ _ _ _ ix0 hb i)

end Cert.Finite

end
-- ==== Proof.lean ====
/-
  Attention with the softmax normalization moved behind the second matrix product, against the plain reference.

  For every batch entry `b` and query row `t` the kernel computes the scores `∑ d, dec[b,t,d] · enc[b,s,d]`, the weights
  `w s = exp (score s − max score)`, the normalizer `L = ∑ s, w s`, and writes `(∑ s, w s · enc[b,s,r]) / L` into
  columns `r < 1024` of the result and the decoder row itself into columns `1024 + r`. The reference divides the weights
  by `L` first and then forms `∑ s, (w s / L) · enc[b,s,r]`, and joins that with the decoder array.

  On the extended reals a quotient does not distribute over a sum in general, so the two are compared under the
  precondition: every entry of both arrays is a real. Then every score is a real, the largest of the 2048 scores of a
  row is a real, every weight is a positive real and so is `L`, and `(∑ s, w s · v s) · (1/L) = ∑ s, (w s · (1/L)) · v s`
  in `ℝ`. The narrowing of the matrix products' operands is the identity on the extended reals, a matrix product into
  a zero accumulator and a contraction are the same sum, a row maximum from `−∞` is the same fold on both sides (the
  reference's second maximum against `−∞` changes nothing), and the tiling into 16 × 2 blocks covers the result array.

  The three runs are the generated ones; the idealization rewrote nothing, so its claim is trivial.
-/
import proofs.«166117_j1056561955134_2_alg».proof.Defs
import proofs.«166117_j1056561955134_2_alg».proof.Proof.Gen.Kernel
import proofs.«166117_j1056561955134_2_alg».proof.Proof.Gen.Kernel.Skeleton
import proofs.«166117_j1056561955134_2_alg».proof.Proof.Gen.Kernel.Launch
import proofs.«166117_j1056561955134_2_alg».proof.Proof.Gen.Kernel.Points
import proofs.«166117_j1056561955134_2_alg».proof.Proof.Gen.Kernel.Frame
import proofs.«166117_j1056561955134_2_alg».proof.Proof.Gen.KernelIdeal
import proofs.«166117_j1056561955134_2_alg».proof.Proof.Gen.KernelIdeal.Skeleton
import proofs.«166117_j1056561955134_2_alg».proof.Proof.Gen.KernelIdeal.Launch
import proofs.«166117_j1056561955134_2_alg».proof.Proof.Gen.KernelIdeal.Points
import proofs.«166117_j1056561955134_2_alg».proof.Proof.Gen.KernelIdeal.Frame
import proofs.«166117_j1056561955134_2_alg».proof.Proof.Gen.ReferenceIdeal
import proofs.«166117_j1056561955134_2_alg».proof.Proof.Gen.Pre_finite_inputs
import proofs.«166117_j1056561955134_2_alg».proof.Proof.Gen.KernelIdeal.Value
import proofs.«166117_j1056561955134_2_alg».proof.Proof.Gen.ReferenceIdeal.Run
import proofs.«166117_j1056561955134_2_alg».proof.Proof.Gen.ReferenceIdeal.Read
import proofs.«166117_j1056561955134_2_alg».proof.Proof.Spec
import proofs.«166117_j1056561955134_2_alg».proof.Proof.KernelValue
import proofs.«166117_j1056561955134_2_alg».proof.Proof.RefValue
import proofs.«166117_j1056561955134_2_alg».proof.Proof.Finite
import Idealize.ShloMosaic.Adequacy
import Idealize.ShloMosaic.Init

noncomputable section

namespace Cert.Proof

open Idealize.ShloMosaic Idealize.ShloMosaic.TcCoe Idealize.SL.Sem Cert.Attn

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both idealized programs end at the same array: the kernel at the late-divided attention (its blocks assembled),
    the reference at the early-divided one (its stages composed), and on real arrays these agree. -/
theorem algebraic : Cert.algebraic_KernelIdeal_ReferenceIdeal := by
  intro m ρ m' ρ' hpre hagree
  refine ⟨fun c => attnOut ctxLate (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]
  obtain ⟨he, hd⟩ := Cert.Finite.reals_of_pre _ _ (hpre c)
  exact (attnOut_late_eq_early _ _ he hd).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
